-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x1 : S_.BroadcastsInDim S11008x1 (![] : Fin 0 → Fin S11008x1.rank)
  reducesTo_S11008x1_S_d0_1 : S11008x1.ReducesTo [0, 1] S_

variable [Facts]

def fn {F : FTy → Type} [FloatOps F] (main_arg0 : FVec F S4x2048x4096 .f32) (main_arg1 : FVec F S11008x4096 .f32) (main_arg2 : FVec F S11008x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x1 .f32 := Host.absf main_arg2
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S8192x4096 : Shape := ⟨2, ![8192, 4096]⟩
abbrev S_ : Shape := ⟨0, ![]⟩
abbrev S8192x11008 : Shape := ⟨2, ![8192, 11008]⟩
abbrev S2048x512 : Shape := ⟨2, ![2048, 512]⟩
abbrev S2048x2048 : Shape := ⟨2, ![2048, 2048]⟩
abbrev S4x2048x11008 : Shape := ⟨3, ![4, 2048, 11008]⟩

abbrev nBuf : Space → Nat
  | .hbm => 22
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x1, .f32⟩
  | .hbm, ⟨3, _⟩ => ⟨S8192x4096, .f32⟩
  | .hbm, ⟨4, _⟩ => ⟨S8192x4096, .bf16⟩
  | .hbm, ⟨5, _⟩ => ⟨S11008x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S11008x4096, .f32⟩
  | .hbm, ⟨13, _⟩ => ⟨S11008x4096, .f32⟩
  | .hbm, ⟨14, _⟩ => ⟨S11008x4096, .i1⟩
  | .hbm, ⟨15, _⟩ => ⟨S11008x4096, .f32⟩
  | .hbm, ⟨16, _⟩ => ⟨S11008x4096, .f32⟩
  | .hbm, ⟨17, _⟩ => ⟨S11008x4096, .f32⟩
  | .hbm, ⟨18, _⟩ => ⟨S11008x4096, .f32⟩
  | .hbm, ⟨19, _⟩ => ⟨S11008x4096, .bf16⟩
  | .hbm, ⟨20, _⟩ => ⟨S8192x11008, .f32⟩
  | .hbm, ⟨21, _⟩ => ⟨S4x2048x11008, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x2048, .f32⟩
  | .local _ .vmem, ⟨5, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x2048x4096_S8192x4096 : S4x2048x4096.ShapeCasts S8192x4096
  bitsLt_bf16_f32 : FTy.bits .bf16 < FTy.bits .f32
  reducesTo_S11008x4096_S_d0_1 : S11008x4096.ReducesTo [0, 1] S_
  h_S_ : 0 < S_.numel
  bcast_S_S11008x4096 : S_.BroadcastsInDim S11008x4096 (![] : Fin 0 → Fin S11008x4096.rank)
  bcast_S11008x1_S11008x4096_0_1 : S11008x1.BroadcastsInDim S11008x4096 (![0, 1] : Fin 2 → Fin S11008x4096.rank)
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x2048_S2048x2048 : S2048x2048.ShapeCasts S2048x2048
  shapeCasts_S8192x11008_S4x2048x11008 : S8192x11008.ShapeCasts S4x2048x11008
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S11008x4096.size a
  hwx0_1 : ∀ i : grid0.Coords, EltTy.bits .bf16 = 32 ∨ (Rect.unit (s := S11008x4096) (fun a => cc0_transform_1 i a * S2048x512.size a) (fun a => (Pipeline.Clip.of (cc0_transform_1 i a) (S2048x512.size a) (S11008x4096.size a)).extent (S2048x512.size a)) fun a => Pipeline.Clip.inb (Pipeline.Clip.ok_of (hstart0_1 i a))).WholeWords (EltTy.packing .bf16)
  hwxs0_1 : ∀ i : grid0.Coords, EltTy.bits .bf16 = 32 ∨ (Rect.unit (s := S2048x512) (fun _ => 0) (fun a => (Pipeline.Clip.of (cc0_transform_1 i a) (S2048x512.size a) (S11008x4096.size a)).extent (S2048x512.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x2048.size a < S8192x11008.size a
  hwx0_2 : ∀ i : grid0.Coords, EltTy.bits .f32 = 32 ∨ (Rect.unit (s := S8192x11008) (fun a => cc0_transform_2 i a * S2048x2048.size a) (fun a => (Pipeline.Clip.of (cc0_transform_2 i a) (S2048x2048.size a) (S8192x11008.size a)).extent (S2048x2048.size a)) fun a => Pipeline.Clip.inb (Pipeline.Clip.ok_of (hstart0_2 i a))).WholeWords (EltTy.packing .f32)
  hwxs0_2 : ∀ i : grid0.Coords, EltTy.bits .f32 = 32 ∨ (Rect.unit (s := S2048x2048) (fun _ => 0) (fun a => (Pipeline.Clip.of (cc0_transform_2 i a) (S2048x2048.size a) (S8192x11008.size a)).extent (S2048x2048.size a)) fun a => (Nat.zero_add _).trans_le (Pipeline.Clip.extent_le (Pipeline.Clip.ok_of (hstart0_2 i a)))).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v13) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v14) S2048x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S_ : Shape := ⟨0, ![]⟩
abbrev S4x2048x11008 : Shape := ⟨3, ![4, 2048, 11008]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x1, .f32⟩
  | .hbm, ⟨3, _⟩ => ⟨S11008x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S11008x4096, .f32⟩
  | .hbm, ⟨11, _⟩ => ⟨S11008x4096, .f32⟩
  | .hbm, ⟨12, _⟩ => ⟨S11008x4096, .i1⟩
  | .hbm, ⟨13, _⟩ => ⟨S11008x4096, .f32⟩
  | .hbm, ⟨14, _⟩ => ⟨S11008x4096, .f32⟩
  | .hbm, ⟨15, _⟩ => ⟨S11008x4096, .f32⟩
  | .hbm, ⟨16, _⟩ => ⟨S11008x4096, .f32⟩
  | .hbm, ⟨17, _⟩ => ⟨S11008x4096, .f32⟩
  | .hbm, ⟨18, _⟩ => ⟨S11008x4096, .f32⟩
  | .hbm, ⟨19, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S11008x4096_S_d0_1 : S11008x4096.ReducesTo [0, 1] S_
  h_S_ : 0 < S_.numel
  bcast_S_S11008x4096 : S_.BroadcastsInDim S11008x4096 (![] : Fin 0 → Fin S11008x4096.rank)
  bcast_S11008x1_S11008x4096_0_1 : S11008x1.BroadcastsInDim S11008x4096 (![0, 1] : Fin 2 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.BitsBody.lean ====
/-
  The frame of the word-level program: it runs to the end, faults nowhere and leaves its three argument arrays
  as they were. The frame reads nothing of what the matrix product leaves in any staging buffer, so the proof
  data forget all three windows: the body is run from ANY contents of its three staging buffers to SOME
  contents of them (the accumulator's reset under `k = 0` is decided either way), the argument arrays are
  buffers no window stages, and the one host line after the region writes only the reshaped result.
-/
import proofs.«121762_j81046032875543_2_alg».proof.Proof.Gen.Kernel.Frame
import proofs.«121762_j81046032875543_2_alg».proof.Proof.Gen.Kernel.Skeleton
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body resets its accumulator exactly when the innermost grid coordinate (the block of the contracted axis) is zero. -/
abbrev resetAt (i : grid0.Coords) : Prop :=
  Scalar.cmpi .ne (Scalar.extui (Scalar.cmpi .eq (BitVec.ofNat 32 (i 2).val) 0#32)) 0#32 = 1#1

set_option maxHeartbeats 1000000 in
/-- The body on whole staging memrefs holding anything: it runs, and hands the three buffers back holding something. -/
theorem body_any (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S2048x2048 .f32) (harg5 : arg5.IsWhole) :
    ∀ (E : Set ℕ) (K : PUnit → sProp 𝕄),
      iprop((∃ d, owns (c : Thread nD τ) arg3 fullShare d) ∗ (∃ d, owns (c : Thread nD τ) arg4 fullShare d)
          ∗ (∃ d, owns (c : Thread nD τ) arg5 fullShare d)
          ∗ (iprop((∃ d, owns (c : Thread nD τ) arg3 fullShare d) ∗ (∃ d, owns (c : Thread nD τ) arg4 fullShare d)
              ∗ (∃ d, owns (c : Thread nD τ) arg5 fullShare d)) -∗ K ⟨⟩))
        ⊢ wp frame (wpE (defs₀ (F := F)) Variants.none c none) E (cc0__bitlinear_matmul_kernel i arg3 harg3 arg4 harg4 arg5 harg5) K := by
  intro E K
  simp only [cc0__bitlinear_matmul_kernel_eq_skeleton]; unfold cc0__bitlinear_matmul_kernel_skel
  unfold owns
  by_cases hc : resetAt i
  · iintro ⟨⟨%d0, %f0, -, H0⟩, ⟨%d1, %f1, -, H1⟩, ⟨%d2, %f2, -, H2⟩, Hk⟩
    sl_exec (disch := first | exact hc)
    sl_step
    iapply Hk
    isplitl [H0]
    · iexists _, _; isplitr; swap; · iexact H0
      ipureintro; rfl
    isplitl [H1]
    · iexists _, _; isplitr; swap; · iexact H1
      ipureintro; rfl
    · iexists _, _; isplitr; swap; · iexact H2
      ipureintro; rfl
  · iintro ⟨⟨%d0, %f0, -, H0⟩, ⟨%d1, %f1, -, H1⟩, ⟨%d2, %f2, -, H2⟩, Hk⟩
    sl_exec (disch := first | exact hc)
    sl_step
    iapply Hk
    isplitl [H0]
    · iexists _, _; isplitr; swap; · iexact H0
      ipureintro; rfl
    isplitl [H1]
    · iexists _, _; isplitr; swap; · iexact H1
      ipureintro; rfl
    · iexists _, _; isplitr; swap; · iexact H2
      ipureintro; rfl

end Cert.Kernel.Hand

end
-- ==== Proof.BitsFrame.lean ====
/-
  The frame of the word-level program, from the body run of `BitsBody`: proof data that forget all three windows
  (nothing the frame claims reads a staging buffer or the result array), the body obligation at every grid point,
  the run around the region, and the claim's post read at the three argument arrays — buffers no window stages and
  the one host line after the region (the reshape of the result) does not write.
-/
import proofs.«121762_j81046032875543_2_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten: handed to the body at any contents, taken back at any. -/
def forgets : Fin 3 → Bool := fun _ => true

/-- The proof data: the arrays as the region finds them; the staging contents after the body named nowhere. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The body at any grid point, between the obligation's pre and post with every window forgotten. -/
theorem sound_body (c : Dev nD) (t : Fin cfg0.N) :
    iprop((dats m 0 c).Φ t.castSucc ∗ (dats m 0 c).owesAt () t.castSucc
        ∗ (∃ X, owns (c : Thread nD τ) (st0_0 t) fullShare X) ∗ (∃ X, owns (c : Thread nD τ) (st0_1 t) fullShare X)
        ∗ (∃ X, owns (c : Thread nD τ) (st0_2 t) fullShare X))
      ⊢ wp frame (wpE (defs₀ (F := F)) Variants.none c none) Set.univ (bodyAt0 t) (fun _ =>
          iprop((dats m 0 c).Φ t.succ ∗ (dats m 0 c).owesAt () t.succ
            ∗ (∃ X, owns (c : Thread nD τ) (st0_0 t) fullShare X) ∗ (∃ X, owns (c : Thread nD τ) (st0_1 t) fullShare X)
            ∗ (∃ X, owns (c : Thread nD τ) (st0_2 t) fullShare X))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, H0, H1, H2⟩
  iapply (body_any (F := F) c (grid0.coords t) _ _ _ _ _ _ Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligationLoose (dats (F := F) m 0 c) (defs₀ (F := F)) Variants.none () Set.univ forgets := fun t => by
  rw [bigSep_W0, bigSep_W0]
  exact sound_body m c t

/-- The host line after the region writes the reshaped result only. -/
theorem tail_writes : ∀ ops ∈ ([hostOps1] : List (List (HloOp τ sig (Elt F)))), ∀ op ∈ ops, ∀ b : Ref sig .tc,
    Proc.devRef .tc b ∈ op.writes → b ∈ ({main_v15} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  by_contra hne
  exact StableHlo.devRef_ne_of_ne (fun h => hne (Finset.mem_singleton.mpr h)) hb

set_option backward.isDefEq.respectTransparency.types false in
/-- Every weakly fair execution of @main terminates, nothing faulting; every buffer that is no array of the pipeline
    and not the reshaped result ends as the region found it. -/
theorem run_main : θ_run defs (onTc (τ := τ) (main (F := F))) (s₀ m ρ)
    (Pipeline.RDat.FramePostR (cfgs 0) (fun c => (dats m 0 c).toRForget forgets) {main_v15} (fun c b => V0 m c (Proc.devRef .tc b))) :=
  Pipeline.RDat.θ_run_frame_around_T cfgs (0 : Fin 1) launch0 defs₀ Variants.none (fun c => (dats m 0 c).toRForget forgets) {main_v15} m ρ main
    (hbody := fun c => (body_obligation m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim's post: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c)⟩)
    (run_main m ρ)

end Cert.Kernel.Hand

end
-- ==== Proof.IdealBody.lean ====
/-
  The body of the idealized kernel, run once per case of its one conditional, with what it leaves in the
  accumulator's staging buffer NAMED. At a grid point the body holds a row block `x` of the left operand
  ([2048, 512]), a row block `w` of the right operand ([2048, 512]) and the accumulator `acc` ([2048, 2048]);
  it leaves `acc' + x · wᵀ`, where `acc'` is the zero block when the innermost grid coordinate (the block of
  the contracted axis) is zero and `acc` otherwise. Both are the body's one payload `k0_pay2 x w acc'`.
-/
import proofs.«121762_j81046032875543_2_alg».proof.Proof.Gen.KernelIdeal.Frame
import proofs.«121762_j81046032875543_2_alg».proof.Proof.Gen.KernelIdeal.Skeleton
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body resets its accumulator exactly when the innermost grid coordinate is zero. -/
abbrev resetAt (i : grid0.Coords) : Prop :=
  Scalar.cmpi .ne (Scalar.extui (Scalar.cmpi .eq (BitVec.ofNat 32 (i 2).val) 0#32)) 0#32 = 1#1

/-- A whole [2048, 2048] view to read a list of stores back through. -/
abbrev VO2 : View sig .tc .vmem S2048x2048 .f32 := (Memref.whole cc0_stg2_0 : Memref sig .tc .vmem S2048x2048 .f32).view

theorem hz : (![0, 0] : Fin 2 → Nat) = fun _ => 0 := funext fun a => by fin_cases a <;> rfl

set_option maxHeartbeats 1000000 in
/-- The resetting case: the operands' buffers hold `x0`, `x1`, the accumulator's anything; the body runs and leaves
    the operands' buffers as they were and the accumulator's with the stores of the run written (the list is found
    by the run). -/
noncomputable def run_reset (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S2048x2048 .f32) (harg5 : arg5.IsWhole)
    (hc : resetAt i) (x0 : Vec F S2048x512 .bf16) (x1 : Vec F S2048x512 .bf16) :
    { L : List (View.Piece (Elt F) S2048x2048 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc0__bitlinear_matmul_kernel i arg3 harg3 arg4 harg4 arg5 harg5) K } := by
  refine ⟨?_, fun E K => ?run⟩
  case run =>
    simp only [cc0__bitlinear_matmul_kernel_eq_skeleton]; unfold cc0__bitlinear_matmul_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- The accumulating case: as above, the accumulator's buffer holding `xo`. -/
noncomputable def run_acc (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S2048x2048 .f32) (harg5 : arg5.IsWhole)
    (hc : ¬resetAt i) (x0 : Vec F S2048x512 .bf16) (x1 : Vec F S2048x512 .bf16) (xo : Vec F S2048x2048 .f32) :
    { L : List (View.Piece (Elt F) S2048x2048 .f32) //
      ∀ (E : Set ℕ) (K : PUnit → sProp 𝕄),
        iprop(owns (c : Thread nD τ) arg3 fullShare x0 ∗ owns (c : Thread nD τ) arg4 fullShare x1
            ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc0__bitlinear_matmul_kernel i arg3 harg3 arg4 harg4 arg5 harg5) K } := by
  refine ⟨?_, fun E K => ?run⟩
  case run =>
    simp only [cc0__bitlinear_matmul_kernel_eq_skeleton]; unfold cc0__bitlinear_matmul_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- The stores of either case tile the accumulator's block, so they cover it. -/
theorem cover_reset (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S2048x2048 .f32) (harg5 : arg5.IsWhole)
    (hc : resetAt i) (x0 : Vec F S2048x512 .bf16) (x1 : Vec F S2048x512 .bf16) (y : S2048x2048.Idx) :
    ∃ pc ∈ (run_reset c i arg3 harg3 arg4 harg4 arg5 harg5 hc x0 x1).1, y ∈ pc.1.set :=
  View.cover_of_tiledL (run_reset c i arg3 harg3 arg4 harg4 arg5 harg5 hc x0 x1).1 S2048x2048.size (by sl_kernel_rfl) y

theorem cover_acc (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S2048x2048 .f32) (harg5 : arg5.IsWhole)
    (hc : ¬resetAt i) (x0 : Vec F S2048x512 .bf16) (x1 : Vec F S2048x512 .bf16) (xo : Vec F S2048x2048 .f32) (y : S2048x2048.Idx) :
    ∃ pc ∈ (run_acc c i arg3 harg3 arg4 harg4 arg5 harg5 hc x0 x1 xo).1, y ∈ pc.1.set :=
  View.cover_of_tiledL (run_acc c i arg3 harg3 arg4 harg4 arg5 harg5 hc x0 x1 xo).1 S2048x2048.size (by sl_kernel_rfl) y

/-- What the resetting case leaves in the accumulator's buffer: its stores read back. -/
def out_reset (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S2048x2048 .f32) (harg5 : arg5.IsWhole)
    (hc : resetAt i) (x0 : Vec F S2048x512 .bf16) (x1 : Vec F S2048x512 .bf16) : Vec F S2048x2048 .f32 :=
  VO2.read (Elt F) (VO2.writes (Elt F) VO2.junk (run_reset c i arg3 harg3 arg4 harg4 arg5 harg5 hc x0 x1).1)

/-- What the accumulating case leaves there. -/
def out_acc (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S2048x2048 .f32) (harg5 : arg5.IsWhole)
    (hc : ¬resetAt i) (x0 : Vec F S2048x512 .bf16) (x1 : Vec F S2048x512 .bf16) (xo : Vec F S2048x2048 .f32) : Vec F S2048x2048 .f32 :=
  VO2.read (Elt F) (VO2.writes (Elt F) VO2.junk (run_acc c i arg3 harg3 arg4 harg4 arg5 harg5 hc x0 x1 xo).1)

/-- The accumulating case leaves the payload of its one covering store: the accumulator plus the block product. -/
theorem out_acc_eq (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S2048x2048 .f32) (harg5 : arg5.IsWhole)
    (hc : ¬resetAt i) (x0 : Vec F S2048x512 .bf16) (x1 : Vec F S2048x512 .bf16) (xo : Vec F S2048x2048 .f32) :
    out_acc c i arg3 harg3 arg4 harg4 arg5 harg5 hc x0 x1 xo = k0_pay2 x0 x1 xo := by
  unfold out_acc
  rw [View.read_writes_eq_canon _ _ _ (cover_acc c i arg3 harg3 arg4 harg4 arg5 harg5 hc x0 x1 xo)]
  unfold run_acc
  dsimp only
  rw [View.canon_unit_zero hz]
  simp only [View.readAt_eq_ld, harg3.read_unread, harg4.read_unread, harg5.read_unread,
    View.ld_unit_zero (S := S2048x512) hz, View.ld_unit_zero (S := S2048x2048) hz]

/-- The resetting case stores the zero block, reads it back and leaves the zero block plus the block product. -/
theorem out_reset_eq (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S2048x2048 .f32) (harg5 : arg5.IsWhole)
    (hc : resetAt i) (x0 : Vec F S2048x512 .bf16) (x1 : Vec F S2048x512 .bf16) :
    out_reset c i arg3 harg3 arg4 harg4 arg5 harg5 hc x0 x1 = k0_pay2 x0 x1 (k0_pay1 (F := F)) := by
  unfold out_reset
  rw [View.read_writes_eq_canon _ _ _ (cover_reset c i arg3 harg3 arg4 harg4 arg5 harg5 hc x0 x1)]
  unfold run_reset
  dsimp only
  sl_unfold_words
  rw [View.canon_cons_unit_zero (S := S2048x2048) hz, View.readCov_unit_zero (S := S2048x2048) _ hz]
  simp only [View.readAt_eq_ld, harg3.read_unread, harg4.read_unread,
    View.ld_unit_zero (S := S2048x512) hz, View.ld_unit_zero (S := S2048x2048) hz]

end Cert.KernelIdeal.Hand

end
-- ==== Proof.IdealData.lean ====
/-
  The proof data of the idealized kernel's one pipeline. The grid is (i, j, k) = (4, 6, 8), k innermost; at point
  t the left operand's window holds row block (i, k) of the [8192, 4096] array, the right operand's window row
  block (j, k) of the [11008, 4096] array — for j = 5 only its first 768 rows lie inside the array, the rest of
  the staging buffer holding words nothing names — and the result's window accumulates block (i, j) of the
  [8192, 11008] result over the eight k, written back after the eighth. What the accumulator's buffer holds
  after point t is defined by recursion on t: the body's payload of the two operand blocks and of the zero block
  (k = 0) or of what the point before left (k > 0), the right operand's block filled out past the array's end
  with a fixed word; the columns of the accumulator past the array's end depend on that filling, and nothing
  reads them: the write-back moves the columns inside the array only.
-/
import proofs.«121762_j81046032875543_2_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body, and its wholeness. -/
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .f32 := win0_2.stage (cfg0.slots t 2)
abbrev hs0_2 (t : Fin cfg0.N) : (ms0_2 t).IsWhole := hstage0_2 ((cfg0.slots t 2).cast nbuf0_2)

/-- The body resets the accumulator at the points whose k is zero: those ≡ 0 (mod 8). -/
theorem hreset : ∀ t : Fin cfg0.N, resetAt (grid0.coords t) ↔ t.val % 8 = 0 :=
  (by decide +kernel : ∀ t : Fin grid0.N, resetAt (grid0.coords t) ↔ t.val % 8 = 0)

/-- The right operand's block at point `t`, filled out past the array's end with a fixed word. -/
def wfill (c : Dev nD) (t : Fin cfg0.N) : Vec F S2048x512 .bf16 :=
  win0_1.fill (grid0.coords t) (fun _ => Scalar.ofBits .bf16 0#16) (iblk m c 1 t)

/-- What the accumulator's staging buffer holds after the body at point `n`. -/
def accAt (c : Dev nD) : (n : ℕ) → n < cfg0.N → Vec F S2048x2048 .f32
  | 0, hn => k0_pay2 (iblk m c 0 ⟨0, hn⟩) (wfill m c ⟨0, hn⟩) (k0_pay1 (F := F))
  | n + 1, hn =>
    if (n + 1) % 8 = 0 then k0_pay2 (iblk m c 0 ⟨n + 1, hn⟩) (wfill m c ⟨n + 1, hn⟩) (k0_pay1 (F := F))
    else k0_pay2 (iblk m c 0 ⟨n + 1, hn⟩) (wfill m c ⟨n + 1, hn⟩) (accAt c n (Nat.lt_of_succ_lt hn))

theorem accAt_reset (c : Dev nD) (t : Fin cfg0.N) (h0 : t.val % 8 = 0) :
    accAt m c t.val t.isLt = k0_pay2 (iblk m c 0 t) (wfill m c t) (k0_pay1 (F := F)) := by
  obtain ⟨n, hn⟩ := t
  cases n with
  | zero => exact rfl
  | succ n => exact (if_pos h0).trans rfl

theorem accAt_acc (c : Dev nD) (t : Fin cfg0.N) (h0 : ¬t.val % 8 = 0) :
    accAt m c t.val t.isLt = k0_pay2 (iblk m c 0 t) (wfill m c t)
      (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data: the arrays as the region finds them; after the body the left operand's buffer at its block,
    the right operand's at its block filled out, the accumulator's at `accAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wfill m c t := by dsimp only [dats]
theorem after0_2 (c : Dev nD) (t : Fin cfg0.N) : (dats m 0 c).after 2 t = accAt m c t.val t.isLt := by dsimp only [dats]

/-- The left operand's buffer holds its block at every point. -/
theorem before0_0 (c : Dev nD) (t : Fin cfg0.N) (d) : (dats m 0 c).before 0 t d = iblk m c 0 t :=
  before0_0_of m (dats m 0 c) (A_eq m c 0) (after0_0 m c) t d

/-- The right operand's buffer, fetched at every point, holds its block on the rows inside the array and anything past them. -/
theorem before0_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- At a point with k = 0 the accumulator's buffer holds anything: it is the first point, or the block was just written back. -/
theorem before0_2_reset (c : Dev nD) (t : Fin cfg0.N) (h0 : t.val % 8 = 0) (d) : (dats m 0 c).before 2 t d = d := by
  refine Dat.before_out_reset _ 2 rfl t ?_ d
  by_cases ht : t.val = 0
  · exact .inl ht
  · exact .inr ⟨ht, (flush0_2 _).mpr (by dsimp only; omega)⟩

/-- At a point with k > 0 it holds, on the columns inside the array, what the point before left. -/
theorem before0_2_acc (c : Dev nD) (t : Fin cfg0.N) (h0 : ¬t.val % 8 = 0) (d) :
    (dats m 0 c).before 2 t d
      = win0_2.fill (grid0.coords ⟨t.val - 1, Nat.lt_of_le_of_lt (Nat.sub_le _ _) t.isLt⟩) d
          (win0_2.cut (grid0.coords ⟨t.val - 1, Nat.lt_of_le_of_lt (Nat.sub_le _ _) t.isLt⟩)
            (accAt m c (t.val - 1) (Nat.lt_of_le_of_lt (Nat.sub_le _ _) t.isLt))) := by
  rw [Dat.before_out_acc _ 2 rfl t (by omega)
    (Bool.eq_false_iff.mpr fun h => by have := (flush0_2 _).mp h; dsimp only at this; omega) (fun _ => rfl)]
  unfold Dat.kept
  rw [after0_2]

end Cert.KernelIdeal.Hand

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.IdealPay.lean ====
/-
  The body's two payloads at an index, at the ideal values: the reset stores the zero block, and the
  accumulation stores, at row `r` and column `c`, the accumulator there plus the inner product of row `r` of the
  left block with row `c` of the right block (the product is against the right block transposed).
-/
import proofs.«121762_j81046032875543_2_alg».proof.Proof.Gen.KernelIdeal.Skeleton
import proofs.«121762_j81046032875543_2_alg».proof.Proof.LibDotRowsT
import Idealize.ShloMosaic.Lib.Pipeline.Value

noncomputable section

namespace Cert.KernelIdeal.Hand

open Cert.KernelIdeal Cert.KernelIdeal.Gen
open Idealize.ShloMosaic Idealize.ShloMosaic.ValueIdx

local notation "dotR" => dot_S2048x512_S2048x512_S2048x2048_1_1_0_0_n_n

/-- The reset's payload is the zero block. -/
theorem pay1_apply (y : S2048x2048.Idx) : k0_pay1 (F := Ideal) y = 0 := by
  unfold k0_pay1
  show Ideal.ofBits .f32 0x00000000#32 = 0
  exact Ideal.ofBits_zero_f32

theorem dotR_l0 (j : S2048x2048.Idx) (k : (dot_S2048x512_S2048x512_S2048x2048_1_1_0_0_n_n).contr.Idx) :
    ((dot_S2048x512_S2048x512_S2048x2048_1_1_0_0_n_n).lhsIdx j k 0).val = (j 0).val := by
  unfold DotDims.lhsIdx
  rw [dif_neg (show ¬(0 : Fin S2048x512.rank) ∈ (dot_S2048x512_S2048x512_S2048x2048_1_1_0_0_n_n).lhsBatch by decide),
    dif_pos (show (0 : Fin S2048x512.rank) ∈ (dot_S2048x512_S2048x512_S2048x2048_1_1_0_0_n_n).lhsNonContracting by decide)]
  rfl

theorem dotR_r0 (j : S2048x2048.Idx) (k : (dot_S2048x512_S2048x512_S2048x2048_1_1_0_0_n_n).contr.Idx) :
    ((dot_S2048x512_S2048x512_S2048x2048_1_1_0_0_n_n).rhsIdx j k 0).val = (j 1).val := by
  unfold DotDims.rhsIdx
  rw [dif_neg (show ¬(0 : Fin S2048x512.rank) ∈ (dot_S2048x512_S2048x512_S2048x2048_1_1_0_0_n_n).rhsBatch by decide),
    dif_pos (show (0 : Fin S2048x512.rank) ∈ (dot_S2048x512_S2048x512_S2048x2048_1_1_0_0_n_n).rhsNonContracting by decide)]
  rfl

/-- The accumulation's payload at `(r, c)`. -/
theorem pay2_apply (x0 : Vec Ideal S2048x512 .bf16) (x1 : Vec Ideal S2048x512 .bf16) (xo : Vec Ideal S2048x2048 .f32)
    (r c : Fin 2048) :
    k0_pay2 (F := Ideal) x0 x1 xo (ix2 r c) = xo (ix2 r c) + ∑ k : Fin 512, x0 (ix2 r k) * x1 (ix2 c k) := by
  unfold k0_pay2
  simp only [shapeCast_self]
  rw [ValueIdx.addf_apply]
  congr 1
  exact ValueIdx.matmul_zero_rowsT (dot_S2048x512_S2048x512_S2048x2048_1_1_0_0_n_n) none rfl rfl dotR_l0
    (fun j k => (dot_S2048x512_S2048x512_S2048x2048_1_1_0_0_n_n).lhsIdx_val_of_single rfl j k) dotR_r0
    (fun j k => (dot_S2048x512_S2048x512_S2048x2048_1_1_0_0_n_n).rhsIdx_val_of_single rfl j k) x0 x1 r c

end Cert.KernelIdeal.Hand

end
-- ==== Proof.IdealLocal.lean ====
/-
  Why stating the clipped windows' buffers on the part their transfers move is enough. The right operand's and the
  result's windows overhang their arrays at j = 5. At the ideal values column `c` of the payload is the
  accumulator's column `c` plus inner products with ROW `c` of the right block, so the columns of the result
  inside the array depend on the rows of the right block inside the array and on the accumulator's columns inside
  the array, and on nothing past them; and within one output block the cut does not change from point to point.
-/
import proofs.«121762_j81046032875543_2_alg».proof.Proof.IdealData
import proofs.«121762_j81046032875543_2_alg».proof.Proof.IdealPay

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The extents the transfers move, decided over the grid: the right operand's rows are the result's columns
    (both cut by the same j), its 512 columns and the result's 2048 rows are never cut. -/
theorem xsizes : ∀ t : Fin cfg0.N, win0_1.xsize (grid0.coords t) 0 = win0_2.xsize (grid0.coords t) 1
      ∧ win0_1.xsize (grid0.coords t) 1 = 512 ∧ win0_2.xsize (grid0.coords t) 0 = 2048 :=
  (by decide +kernel : ∀ t : Fin grid0.N, win0_1.xsize (grid0.coords t) 0 = win0_2.xsize (grid0.coords t) 1
      ∧ win0_1.xsize (grid0.coords t) 1 = 512 ∧ win0_2.xsize (grid0.coords t) 0 = 2048)

/-- Within a run of eight points (one output block) the result's cut does not change. -/
theorem xsize_prev : ∀ t : Fin cfg0.N, ¬t.val % 8 = 0 → ∀ a,
    win0_2.xsize (grid0.coords ⟨t.val - 1, Nat.lt_of_le_of_lt (Nat.sub_le _ _) t.isLt⟩) a = win0_2.xsize (grid0.coords t) a :=
  (by decide +kernel : ∀ t : Fin grid0.N, ¬t.val % 8 = 0 → ∀ a,
    win0_2.xsize (grid0.coords ⟨t.val - 1, Nat.lt_of_le_of_lt (Nat.sub_le _ _) t.isLt⟩) a = win0_2.xsize (grid0.coords t) a)

/-- Row `c` of the right block is moved by the fetch when column `c` of the result is moved by the write-back. -/
theorem moved_row (t : Fin cfg0.N) (cc : Fin 2048) (k : Fin 512) (hc : cc.val < win0_2.xsize (grid0.coords t) 1) :
    win0_1.moved (grid0.coords t) (ix2 cc k) = true := by
  rw [Window.moved_iff]
  intro a
  match a with
  | ⟨0, _⟩ => show cc.val < win0_1.xsize (grid0.coords t) 0; rw [(xsizes t).1]; exact hc
  | ⟨1, _⟩ => show k.val < win0_1.xsize (grid0.coords t) 1; rw [(xsizes t).2.1]; exact k.isLt

/-- A filled block at a moved index does not depend on the filling. -/
theorem fill_moved {α : Type} (t : Fin cfg0.N) (d d' : win0_1.block.Idx → α) (g : (win0_1.xblock (grid0.coords t)).Idx → α)
    (j : win0_1.block.Idx) (h : win0_1.moved (grid0.coords t) j = true) :
    win0_1.fill (grid0.coords t) d g j = win0_1.fill (grid0.coords t) d' g j := by
  unfold Window.fill; rw [dif_pos h, dif_pos h]

/-- The payload's columns inside the array: they depend on the accumulator's columns inside the array and on the
    right block's rows inside the array only. -/
theorem cut_pay2 (t : Fin cfg0.N) (x0 : Vec Ideal S2048x512 .bf16) (g : (win0_1.xblock (grid0.coords t)).Idx → Elt Ideal .bf16)
    (d d' : Vec Ideal S2048x512 .bf16) (a a' : Vec Ideal S2048x2048 .f32)
    (ha : win0_2.cut (grid0.coords t) a = win0_2.cut (grid0.coords t) a') :
    win0_2.cut (grid0.coords t) (k0_pay2 (F := Ideal) x0 (win0_1.fill (grid0.coords t) d g) a)
      = win0_2.cut (grid0.coords t) (k0_pay2 (F := Ideal) x0 (win0_1.fill (grid0.coords t) d' g) a') := by
  funext j
  have hj1 : (j 1).val < win0_2.xsize (grid0.coords t) 1 := (j 1).isLt
  have hr : (j 0).val < 2048 := lt_of_lt_of_le (j 0).isLt (win0_2.xsize_le (grid0.coords t) 0)
  have hcol : (j 1).val < 2048 := lt_of_lt_of_le (j 1).isLt (win0_2.xsize_le (grid0.coords t) 1)
  have hy : win0_2.xinj (grid0.coords t) j = ix2 (⟨(j 0).val, hr⟩ : Fin 2048) (⟨(j 1).val, hcol⟩ : Fin 2048) :=
    funext fun a => Fin.ext (by match a with | ⟨0, _⟩ => rfl | ⟨1, _⟩ => rfl)
  show k0_pay2 (F := Ideal) x0 _ a (win0_2.xinj (grid0.coords t) j) = k0_pay2 (F := Ideal) x0 _ a' (win0_2.xinj (grid0.coords t) j)
  have haj : a (win0_2.xinj (grid0.coords t) j) = a' (win0_2.xinj (grid0.coords t) j) := congrFun ha j
  rw [hy] at haj ⊢
  rw [pay2_apply, pay2_apply, haj]
  congr 1
  refine Finset.sum_congr rfl fun k _ => ?_
  congr 1
  exact fill_moved t d d' g _ (moved_row t ⟨(j 1).val, hcol⟩ k hj1)

/-- On the columns inside the array, what the accumulator's buffer holds when a point with k > 0 begins is what the
    point before left there: the two points cut the block alike. -/
theorem kept_cut (c : Dev nD) (t : Fin cfg0.N) (h0 : ¬t.val % 8 = 0) (d2 : Vec Ideal S2048x2048 .f32) :
    win0_2.cut (grid0.coords t)
        (win0_2.fill (grid0.coords ⟨t.val - 1, Nat.lt_of_le_of_lt (Nat.sub_le _ _) t.isLt⟩) d2
          (win0_2.cut (grid0.coords ⟨t.val - 1, Nat.lt_of_le_of_lt (Nat.sub_le _ _) t.isLt⟩)
            (accAt m c (t.val - 1) (Nat.lt_of_le_of_lt (Nat.sub_le _ _) t.isLt))))
      = win0_2.cut (grid0.coords t) (accAt m c (t.val - 1) (Nat.lt_of_le_of_lt (Nat.sub_le _ _) t.isLt)) := by
  funext j
  have hm : win0_2.moved (grid0.coords ⟨t.val - 1, Nat.lt_of_le_of_lt (Nat.sub_le _ _) t.isLt⟩) (win0_2.xinj (grid0.coords t) j) = true := by
    rw [Window.moved_iff]; intro a; rw [xsize_prev t h0 a]; exact (j a).isLt
  show win0_2.fill _ d2 _ (win0_2.xinj (grid0.coords t) j) = _
  unfold Window.fill
  rw [dif_pos hm]

end Cert.KernelIdeal.Hand

end
-- ==== Proof.SumBlocks.lean ====
import Mathlib.Algebra.BigOperators.Fin
import Mathlib.Algebra.BigOperators.Group.Finset.Basic
import Mathlib.Logic.Equiv.Fin.Basic
import Mathlib.Tactic.Ring

/-!
# Splitting a sum of 4096 terms into 8 blocks of 512

A sum indexed by `Fin (a * b)` is the iterated sum over `a` consecutive blocks of length `b`;
the position `k` is written `k = i * b + j` with `i < a` and `j < b`.  The case `a = 8`,
`b = 512` is the one used.  The second half of the file is about the partial sums
`∑_{kb ≤ n} g kb` of a family of 8 terms: the first is `g 0`, each next one adds one term, and
the last is the whole sum.
-/

namespace Cert.Bridge.Sum

variable {M : Type*} [AddCommMonoid M]

/-- A position `i * b + j` with `i < a` and `j < b` lies below `a * b`. -/
theorem block_lt {a b : ℕ} (i : Fin a) (j : Fin b) : i.val * b + j.val < a * b := by
  have hi : i.val + 1 ≤ a := i.isLt
  calc i.val * b + j.val < i.val * b + b := Nat.add_lt_add_left j.isLt _
    _ = (i.val + 1) * b := by ring
    _ ≤ a * b := Nat.mul_le_mul_right b hi

/-- A sum over `Fin (a * b)` is the sum over the `a` blocks of the sums over each block of
length `b`: every `k < a * b` is `i * b + j` for exactly one pair `i < a`, `j < b`. -/
theorem sum_blocks_gen (a b : ℕ) (f : Fin (a * b) → M) :
    ∑ k : Fin (a * b), f k = ∑ i : Fin a, ∑ j : Fin b, f ⟨i.val * b + j.val, block_lt i j⟩ := by
  rw [← Equiv.sum_comp (finProdFinEquiv (m := a) (n := b)) f, Fintype.sum_prod_type]
  refine Finset.sum_congr rfl fun i _ => Finset.sum_congr rfl fun j _ => ?_
  congr 1
  apply Fin.ext
  simp only [finProdFinEquiv_apply_val]
  ring

/-- A sum of 4096 terms is the sum over 8 blocks of the sums of the 512 terms of each block;
term `kk` of block `kb` is the term at position `kb * 512 + kk`. -/
theorem sum_blocks (f : Fin 4096 → M) :
    ∑ k : Fin 4096, f k = ∑ kb : Fin 8, ∑ kk : Fin 512, f ⟨kb.val * 512 + kk.val, by omega⟩ :=
  sum_blocks_gen 8 512 f

/-- The partial sum over the blocks `kb ≤ n + 1` is the partial sum over the blocks `kb ≤ n`
plus the term of block `n + 1`. -/
theorem sum_blocks_succ (g : Fin 8 → M) (n : ℕ) (hn : n + 1 < 8) :
    (∑ kb ∈ Finset.univ.filter (fun kb : Fin 8 => kb.val ≤ n + 1), g kb)
      = (∑ kb ∈ Finset.univ.filter (fun kb : Fin 8 => kb.val ≤ n), g kb) + g ⟨n + 1, hn⟩ := by
  have hset : Finset.univ.filter (fun kb : Fin 8 => kb.val ≤ n + 1)
      = insert (⟨n + 1, hn⟩ : Fin 8) (Finset.univ.filter (fun kb : Fin 8 => kb.val ≤ n)) := by
    ext kb
    simp only [Finset.mem_filter, Finset.mem_univ, true_and, Finset.mem_insert, Fin.ext_iff]
    omega
  have hnot : (⟨n + 1, hn⟩ : Fin 8) ∉ Finset.univ.filter (fun kb : Fin 8 => kb.val ≤ n) := by
    simp only [Finset.mem_filter, Finset.mem_univ, true_and]
    omega
  rw [hset, Finset.sum_insert hnot, add_comm]

/-- The partial sum over the blocks `kb ≤ 0` is the term of block `0`. -/
theorem sum_blocks_zero (g : Fin 8 → M) :
    (∑ kb ∈ Finset.univ.filter (fun kb : Fin 8 => kb.val ≤ 0), g kb) = g 0 := by
  have hset : Finset.univ.filter (fun kb : Fin 8 => kb.val ≤ 0) = {(0 : Fin 8)} := by
    ext kb
    simp only [Finset.mem_filter, Finset.mem_univ, true_and, Finset.mem_singleton, Fin.ext_iff,
      Fin.val_zero]
    omega
  rw [hset, Finset.sum_singleton]

/-- The partial sum over the blocks `kb ≤ 7` is the sum over all 8 blocks. -/
theorem sum_blocks_all (g : Fin 8 → M) :
    (∑ kb ∈ Finset.univ.filter (fun kb : Fin 8 => kb.val ≤ 7), g kb) = ∑ kb, g kb := by
  have hset : Finset.univ.filter (fun kb : Fin 8 => kb.val ≤ 7) = Finset.univ := by
    ext kb
    have := kb.isLt
    simp only [Finset.mem_filter, Finset.mem_univ, true_and, iff_true]
    omega
  rw [hset]

end Cert.Bridge.Sum
-- ==== Proof.IdealBlocks.lean ====
/-
  The accumulator in closed form. Write t = 48·i + 8·j + k (i < 4, j < 6, k < 8). The left block at t is rows
  2048·i … of the [8192, 4096] operand and columns 512·k …; the right block rows 2048·j … of the [11008, 4096]
  operand and the same columns. On the columns `c` inside the array (c < 768 when j = 5), after point t the
  accumulator holds at (r, c) the sum over the column blocks kb ≤ k and over 512 columns of
  left(2048·i + r, 512·kb + q) · right(2048·j + c, 512·kb + q): the reset adds the first block to zero, each later
  point adds its block — by induction on the point.
-/
import proofs.«121762_j81046032875543_2_alg».proof.Proof.IdealLocal
import proofs.«121762_j81046032875543_2_alg».proof.Proof.SumBlocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The left operand as the region finds it, by natural-number coordinates (zero outside the array). -/
def lhsAt (c : Dev nD) (r q : ℕ) : EReal :=
  if h : r < 8192 ∧ q < 4096 then (V m c main_v1 : S8192x4096.Idx → EReal) (ix2 ⟨r, h.1⟩ ⟨q, h.2⟩) else 0

/-- The right operand as the region finds it, likewise. -/
def rhsAt (c : Dev nD) (r q : ℕ) : EReal :=
  if h : r < 11008 ∧ q < 4096 then (V m c main_v13 : S11008x4096.Idx → EReal) (ix2 ⟨r, h.1⟩ ⟨q, h.2⟩) else 0

/-- The block indices of the three windows and the result's cut, in closed form, decided over the grid. -/
theorem idx_facts : ∀ t : Fin cfg0.N,
    win0_0.index t 0 = t.val / 48 ∧ win0_0.index t 1 = t.val % 8
    ∧ win0_1.index t 0 = t.val / 8 % 6 ∧ win0_1.index t 1 = t.val % 8
    ∧ win0_2.index t 0 = t.val / 48 ∧ win0_2.index t 1 = t.val / 8 % 6
    ∧ win0_2.xsize (grid0.coords t) 1 = (if t.val / 8 % 6 = 5 then 768 else 2048) :=
  (by decide +kernel : ∀ t : Fin grid0.N,
    win0_0.index t 0 = t.val / 48 ∧ win0_0.index t 1 = t.val % 8
    ∧ win0_1.index t 0 = t.val / 8 % 6 ∧ win0_1.index t 1 = t.val % 8
    ∧ win0_2.index t 0 = t.val / 48 ∧ win0_2.index t 1 = t.val / 8 % 6
    ∧ win0_2.xsize (grid0.coords t) 1 = (if t.val / 8 % 6 = 5 then 768 else 2048))

theorem t_lt (t : Fin cfg0.N) : t.val < 192 := lt_of_lt_of_eq t.isLt (show cfg0.N = 192 from N_0)

/-- The left block at point `t`, at `(r, q)`. -/
theorem lblk_apply (c : Dev nD) (t : Fin cfg0.N) (r : Fin 2048) (q : Fin 512) :
    (iblk m c 0 t : Vec Ideal S2048x512 .bf16) (ix2 r q) = lhsAt m c (t.val / 48 * 2048 + r.val) (t.val % 8 * 512 + q.val) := by
  have ht := t_lt t
  have hi := idx_facts t
  unfold lhsAt
  rw [dif_pos ⟨by omega, by omega⟩]
  unfold iblk
  rw [View.read_apply]
  show (V m c main_v1 : S8192x4096.Idx → EReal) _ = _
  congr 1
  funext a
  apply Fin.ext
  match a with
  | ⟨0, _⟩ => show win0_0.index t 0 * 2048 + 1 * r.val = _; rw [hi.1]; show _ = t.val / 48 * 2048 + r.val; omega
  | ⟨1, _⟩ => show win0_0.index t 1 * 512 + 1 * q.val = _; rw [hi.2.1]; show _ = t.val % 8 * 512 + q.val; omega

/-- The right block at point `t`, filled out with anything, at a row inside the array. -/
theorem rblk_apply (c : Dev nD) (t : Fin cfg0.N) (d : Vec Ideal S2048x512 .bf16) (cc : Fin 2048) (q : Fin 512)
    (hc : cc.val < win0_2.xsize (grid0.coords t) 1) :
    win0_1.fill (grid0.coords t) d (iblk m c 1 t) (ix2 cc q) = rhsAt m c (t.val / 8 % 6 * 2048 + cc.val) (t.val % 8 * 512 + q.val) := by
  have ht := t_lt t
  have hi := idx_facts t
  have hc' : cc.val < (if t.val / 8 % 6 = 5 then 768 else 2048) := by rw [← hi.2.2.2.2.2.2]; exact hc
  unfold rhsAt
  rw [dif_pos ⟨by split at hc' <;> omega, by omega⟩]
  unfold Window.fill
  rw [dif_pos (moved_row t cc q hc)]
  unfold iblk
  rw [View.read_apply]
  show (V m c main_v13 : S11008x4096.Idx → EReal) _ = _
  congr 1
  funext a
  apply Fin.ext
  match a with
  | ⟨0, _⟩ => show win0_1.index t 0 * 2048 + 1 * cc.val = _; rw [hi.2.2.1]; show _ = t.val / 8 % 6 * 2048 + cc.val; omega
  | ⟨1, _⟩ => show win0_1.index t 1 * 512 + 1 * q.val = _; rw [hi.2.2.2.1]; show _ = t.val % 8 * 512 + q.val; omega

/-- One column block's contribution to the result at row `2048·i + r`, column `2048·j + cc`. -/
def blockTerm (c : Dev nD) (i j kb r cc : ℕ) : EReal :=
  ∑ q : Fin 512, lhsAt m c (i * 2048 + r) (kb * 512 + q.val) * rhsAt m c (j * 2048 + cc) (kb * 512 + q.val)

/-- The payload of point `t`'s blocks over an accumulator `a`, on a column inside the array. -/
theorem pay2_point (c : Dev nD) (t : Fin cfg0.N) (a : Vec Ideal S2048x2048 .f32) (r cc : Fin 2048)
    (hc : cc.val < win0_2.xsize (grid0.coords t) 1) :
    k0_pay2 (F := Ideal) (iblk m c 0 t) (wfill m c t) a (ix2 r cc)
      = a (ix2 r cc) + blockTerm m c (t.val / 48) (t.val / 8 % 6) (t.val % 8) r.val cc.val := by
  rw [pay2_apply]
  congr 1
  unfold blockTerm
  refine Finset.sum_congr rfl fun q _ => ?_
  rw [lblk_apply m c t r q]
  congr 1
  exact rblk_apply m c t _ cc q hc

/-- The accumulator after point `n`, on the columns inside the array: the column blocks up to k summed. -/
theorem accAt_closed (c : Dev nD) (r cc : Fin 2048) (n : ℕ) : ∀ (hn : n < cfg0.N),
    cc.val < win0_2.xsize (grid0.coords ⟨n, hn⟩) 1 →
    accAt m c n hn (ix2 r cc)
      = ∑ kb ∈ Finset.univ.filter (fun kb : Fin 8 => kb.val ≤ n % 8), blockTerm m c (n / 48) (n / 8 % 6) kb.val r.val cc.val := by
  induction n with
  | zero =>
    intro hn hc
    rw [accAt_reset m c ⟨0, hn⟩ rfl, pay2_point m c ⟨0, hn⟩ _ r cc hc, pay1_apply, zero_add]
    exact (Cert.Bridge.Sum.sum_blocks_zero (fun kb : Fin 8 => blockTerm m c (0 / 48) (0 / 8 % 6) kb.val r.val cc.val)).symm
  | succ n ih =>
    intro hn hc
    by_cases h0 : (n + 1) % 8 = 0
    · rw [accAt_reset m c ⟨n + 1, hn⟩ h0, pay2_point m c ⟨n + 1, hn⟩ _ r cc hc, pay1_apply, zero_add]
      have e : ((⟨n + 1, hn⟩ : Fin cfg0.N).val % 8) = 0 := h0
      rw [e]
      exact (Cert.Bridge.Sum.sum_blocks_zero (fun kb : Fin 8 => blockTerm m c ((n + 1) / 48) ((n + 1) / 8 % 6) kb.val r.val cc.val)).symm
    · have hprev : cc.val < win0_2.xsize (grid0.coords ⟨n, Nat.lt_of_succ_lt hn⟩) 1 := by
        have hx := xsize_prev ⟨n + 1, hn⟩ h0 1
        have he : (⟨(⟨n + 1, hn⟩ : Fin cfg0.N).val - 1, Nat.lt_of_le_of_lt (Nat.sub_le _ _) (⟨n + 1, hn⟩ : Fin cfg0.N).isLt⟩ : Fin cfg0.N)
            = ⟨n, Nat.lt_of_succ_lt hn⟩ := Fin.ext (by show n + 1 - 1 = n; omega)
        rw [he] at hx
        rw [hx]; exact hc
      have hacc := accAt_acc m c ⟨n + 1, hn⟩ h0
      have hstep : accAt m c (n + 1) hn (ix2 r cc)
          = accAt m c n (Nat.lt_of_succ_lt hn) (ix2 r cc) + blockTerm m c ((n + 1) / 48) ((n + 1) / 8 % 6) ((n + 1) % 8) r.val cc.val := by
        have := pay2_point m c ⟨n + 1, hn⟩ (accAt m c n (Nat.lt_of_succ_lt hn)) r cc hc
        rw [← this]
        exact congrFun hacc (ix2 r cc)
      rw [hstep, ih (Nat.lt_of_succ_lt hn) hprev]
      have e1 : (n + 1) / 48 = n / 48 := by omega
      have e2 : (n + 1) / 8 % 6 = n / 8 % 6 := by omega
      have e3 : (n + 1) % 8 = n % 8 + 1 := by omega
      have h8 : n % 8 + 1 < 8 := by omega
      rw [e1, e2, e3]
      exact (Cert.Bridge.Sum.sum_blocks_succ (fun kb : Fin 8 => blockTerm m c (n / 48) (n / 8 % 6) kb.val r.val cc.val) (n % 8) h8).symm

end Cert.KernelIdeal.Hand

end
-- ==== Proof.IdealRun.lean ====
/-
  The body obligation of the idealized kernel at the ideal values, at every grid point; the run around the region;
  the frame. At a point the left operand's buffer holds its block, the right operand's its block filled out with
  whatever the clipped fetch left past the array's end, the accumulator's anything (k = 0) or, on the columns
  inside the array, what the point before left (k > 0). The body leaves the operands as they were and the payload
  in the accumulator; on the columns inside the array that payload is `accAt`'s (`cut_pay2`).
-/
import proofs.«121762_j81046032875543_2_alg».proof.Proof.IdealLocal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body at any grid point, between the obligation's pre and post. -/
theorem sound_body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (ms0_0 t) fullShare ((dats m 0 c).after 0 t)
            ∗ (∃ d, owns (c : Thread nD τ) (ms0_1 t) fullShare
                (win0_1.fill (grid0.coords t) d (win0_1.cut (grid0.coords t) ((dats m 0 c).after 1 t))))
            ∗ (∃ d, owns (c : Thread nD τ) (ms0_2 t) fullShare
                (win0_2.fill (grid0.coords t) d (win0_2.cut (grid0.coords t) ((dats m 0 c).after 2 t)))))) := by
  unfold bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hw : win0_1.cut (grid0.coords t) (wfill m c t) = iblk m c 1 t := win0_1.cut_fill _ _ _
  by_cases h0 : t.val % 8 = 0
  · rw [accAt_reset m c t h0]
    simp only [before0_2_reset m c t h0]
    iintro ⟨HΦ, Ho, ⟨%d0, H0⟩, ⟨%d1, H1⟩, ⟨%d2, H2⟩⟩
    iapply ((run_reset (F := Ideal) c (grid0.coords t) _ (hs0_0 t) _ (hs0_1 t) _ (hs0_2 t) ((hreset t).mpr h0) (iblk m c 0 t)
      (win0_1.fill (grid0.coords t) d1 (iblk m c 1 t))).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]
    · iexists d1; rw [hw]; iexact H1
    · iexists (k0_pay2 (F := Ideal) (iblk m c 0 t) (win0_1.fill (grid0.coords t) d1 (iblk m c 1 t)) (k0_pay1 (F := Ideal)))
      unfold wfill
      rw [win0_2.fill_congr_cut (grid0.coords t) (cut_pay2 t (iblk m c 0 t) (iblk m c 1 t) d1 _ _ _ rfl)]
      unfold owns; iexists _; isplitr
      swap; · iexact H2
      ipureintro
      exact (View.read_writes_of_cover _ _ _ _ _ (cover_reset c _ _ _ _ _ _ _ _ _ _)).trans (out_reset_eq c _ _ _ _ _ _ _ _ _ _)
  · rw [accAt_acc m c t h0]
    simp only [before0_2_acc m c t h0]
    iintro ⟨HΦ, Ho, ⟨%d0, H0⟩, ⟨%d1, H1⟩, ⟨%d2, H2⟩⟩
    iapply ((run_acc (F := Ideal) c (grid0.coords t) _ (hs0_0 t) _ (hs0_1 t) _ (hs0_2 t) (fun h => h0 ((hreset t).mp h)) (iblk m c 0 t)
      (win0_1.fill (grid0.coords t) d1 (iblk m c 1 t)) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]
    · iexists d1; rw [hw]; iexact H1
    · iexists (k0_pay2 (F := Ideal) (iblk m c 0 t) (win0_1.fill (grid0.coords t) d1 (iblk m c 1 t))
        (win0_2.fill (grid0.coords ⟨t.val - 1, Nat.lt_of_le_of_lt (Nat.sub_le _ _) t.isLt⟩) d2
          (win0_2.cut (grid0.coords ⟨t.val - 1, Nat.lt_of_le_of_lt (Nat.sub_le _ _) t.isLt⟩)
            (accAt m c (t.val - 1) (Nat.lt_of_le_of_lt (Nat.sub_le _ _) t.isLt)))))
      unfold wfill
      rw [win0_2.fill_congr_cut (grid0.coords t) (cut_pay2 t (iblk m c 0 t) (iblk m c 1 t) d1 _ _ _ (kept_cut m c t h0 d2))]
      unfold owns; iexists _; isplitr
      swap; · iexact H2
      ipureintro
      exact (View.read_writes_of_cover _ _ _ _ _ (cover_acc c _ _ _ _ _ _ _ _ _ _ _)).trans (out_acc_eq c _ _ _ _ _ _ _ _ _ _ _)

/-- The library's body obligation, at every point: the right operand's and the result's buffers stated on the part
    their transfers move. -/
theorem body_obligation (c : Dev nD) :
    BodyObligationLoose (dats (F := Ideal) m 0 c) (defs₀ (F := Ideal)) Variants.none () Set.univ := fun t => by
  rw [bigSep_W0, bigSep_W0]
  exact sound_body m c t

set_option backward.isDefEq.respectTransparency.types false in
/-- Every weakly fair execution of @main terminates, nothing faulting; the result array ends at what the library
    computes from the proof data, every other buffer as the host line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the three argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.IdealArray.lean ====
/-
  From blocks to the array. The result array [8192, 11008] ends holding, at (R, C), the sum over all 4096
  columns q of left(R, q) · right(C, q): the write-back after the eighth point of block (i, j) writes the part of
  the accumulator inside the array, which is that sum with the eight column blocks put back together, and the
  24 blocks cover the array (the block of (R, C) is i = R / 2048, j = C / 2048).
-/
import proofs.«121762_j81046032875543_2_alg».proof.Proof.IdealBlocks
import proofs.«121762_j81046032875543_2_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The whole result array: every entry the full inner product of a row of the left operand with a row of the right. -/
def resAt (c : Dev nD) : Buf (Elt Ideal) ((c : Thread nD τ).loc main_v14) :=
  fun (i : S8192x11008.Idx) => (∑ q : Fin 4096, lhsAt m c (i 0).val q.val * rhsAt m c (i 1).val q.val : EReal)

/-- What a write-back writes is the block of `resAt` it covers. -/
theorem flushed_eq (c : Dev nD) (t : Fin cfg0.N) (hf : (cfg0.win 2).flush t = true) :
    (dats m 0 c).flushed 2 t = ((cfg0.win 2).blk t).view.read (Elt Ideal) (resAt m c) := by
  have h7 : t.val % 8 = 7 := (flush0_2 t).mp hf
  have ht := t_lt t
  have hi := idx_facts t
  funext j
  have hr : (j 0).val < 2048 := lt_of_lt_of_le (j 0).isLt (win0_2.xsize_le (grid0.coords t) 0)
  have hcol : (j 1).val < 2048 := lt_of_lt_of_le (j 1).isLt (win0_2.xsize_le (grid0.coords t) 1)
  have hy : win0_2.xinj (grid0.coords t) j = ix2 (⟨(j 0).val, hr⟩ : Fin 2048) (⟨(j 1).val, hcol⟩ : Fin 2048) :=
    funext fun a => Fin.ext (by match a with | ⟨0, _⟩ => rfl | ⟨1, _⟩ => rfl)
  rw [View.read_apply]
  show (dats m 0 c).after 2 t (win0_2.xinj (grid0.coords t) j) = _
  rw [after0_2, hy, accAt_closed m c ⟨(j 0).val, hr⟩ ⟨(j 1).val, hcol⟩ t.val t.isLt (j 1).isLt, h7,
    Cert.Bridge.Sum.sum_blocks_all]
  have e0 : ((((cfg0.win 2).blk t).view.emb j) 0).val = t.val / 48 * 2048 + (j 0).val := by
    show win0_2.index t 0 * 2048 + 1 * (j 0).val = _; rw [hi.2.2.2.2.1]; omega
  have e1 : ((((cfg0.win 2).blk t).view.emb j) 1).val = t.val / 8 % 6 * 2048 + (j 1).val := by
    show win0_2.index t 1 * 2048 + 1 * (j 1).val = _; rw [hi.2.2.2.2.2.1]; omega
  unfold resAt
  show _ = ∑ q : Fin 4096, lhsAt m c ((((cfg0.win 2).blk t).view.emb j) 0).val q.val * rhsAt m c ((((cfg0.win 2).blk t).view.emb j) 1).val q.val
  rw [e0, e1, Cert.Bridge.Sum.sum_blocks (fun q : Fin 4096 =>
    lhsAt m c (t.val / 48 * 2048 + (j 0).val) q.val * rhsAt m c (t.val / 8 % 6 * 2048 + (j 1).val) q.val)]
  rfl

/-- Every entry of the array lies in the block some write-back writes. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 8192 := (i 0).isLt
  have h1 : (i 1).val < 11008 := (i 1).isLt
  obtain ⟨n, hn_def⟩ : ∃ n, n = (i 0).val / 2048 * 48 + (i 1).val / 2048 * 8 + 7 := ⟨_, rfl⟩
  have hn : n < cfg0.N := by rw [show cfg0.N = 192 from N_0]; omega
  have hi := idx_facts ⟨n, hn⟩
  have hx := xsizes ⟨n, hn⟩
  refine ⟨⟨n, hn⟩, (flush0_2 _).mpr (by show n % 8 = 7; omega), ?_⟩
  show i ∈ ((View.whole main_v14).slice (win0_2.rect ⟨n, hn⟩)).set
  rw [View.set_slice_whole, Rect.mem_set_unit]
  intro a
  match a with
  | ⟨0, _⟩ =>
    show win0_2.index ⟨n, hn⟩ 0 * 2048 ≤ (i 0).val ∧ (i 0).val < win0_2.index ⟨n, hn⟩ 0 * 2048 + win0_2.xsize (grid0.coords ⟨n, hn⟩) 0
    rw [hi.2.2.2.2.1, hx.2.2]; show n / 48 * 2048 ≤ _ ∧ _ < n / 48 * 2048 + 2048; omega
  | ⟨1, _⟩ =>
    show win0_2.index ⟨n, hn⟩ 1 * 2048 ≤ (i 1).val ∧ (i 1).val < win0_2.index ⟨n, hn⟩ 1 * 2048 + win0_2.xsize (grid0.coords ⟨n, hn⟩) 1
    rw [hi.2.2.2.2.2.1, hi.2.2.2.2.2.2]; show n / 8 % 6 * 2048 ≤ _ ∧ _ < n / 8 % 6 * 2048 + (if n / 8 % 6 = 5 then 768 else 2048)
    split <;> omega

/-- So the result array ends holding `resAt`. -/
theorem final_res (c : Dev nD) : (dats m 0 c).arrAt 2 cfg0.N = resAt m c :=
  (dats m 0 c).arrAt_eq_of_cover 2 (resAt m c) (flushed_eq m c) (cover c)

end Cert.KernelIdeal.Hand

end
-- ==== Proof.RefSum.lean ====
import proofs.«121762_j81046032875543_2_alg».proof.Proof.Gen.ReferenceIdeal.Read
import Mathlib.Data.EReal.Operations

/-!
# The reference's output element as one sum of products

At the ideal reading a float is an extended real.  The reference forms its weight as
`w + (q - w)` with `q = sign w · [|w| > thr]`, scales it by a per-row factor and contracts it
with the activations.  For a real `w` (and any extended real `q`) one has `w + (q - w) = q`, so
each output element is `∑ k, x[b,s,k] · (q[o,k] · scale[o])`.
-/

noncomputable section

namespace Cert.Bridge.Ref

open Cert.ReferenceIdeal Cert.ReferenceIdeal.Gen Cert.ReferenceIdeal.Read Idealize.ShloMosaic
  Idealize.ShloMosaic.TcCoe Idealize.SL.Sem Idealize.ShloMosaic.StableHlo

/-- For a real `a` and any extended real `b`: `a + (b - a) = b`.  For real `b` this is the
identity of the reals; for `b = ±∞` subtracting and then adding a real leaves `±∞`. -/
theorem add_sub_cancel_real (a : ℝ) (b : EReal) : (a : EReal) + (b - (a : EReal)) = b := by
  induction b using EReal.rec with
  | bot => rw [EReal.bot_sub, EReal.add_bot]
  | coe r =>
    rw [← EReal.coe_sub, ← EReal.coe_add]
    congr 1
    ring
  | top => rw [EReal.top_sub_coe, EReal.coe_add_top]

/-- The scaled ternary weight: `q[o,k] · scale[o]`, with `q = sign w · [|w| > thr]` and the scale
broadcast along the row. -/
def Wsc (x1 : (⟨S11008x4096, .f32⟩ : BufTy).Contents (Elt Ideal))
    (x2 : (⟨S11008x1, .f32⟩ : BufTy).Contents (Elt Ideal)) :
    (⟨S11008x4096, .f32⟩ : BufTy).Contents (Elt Ideal) :=
  mulf (F := Ideal) (s := S11008x4096) (φ := .f32) (val_main_v8 (F := Ideal) x1) (val_main_v11 (F := Ideal) x2)

/-- Each element of the reference's result is `∑ k, x[b,s,k] · (q[o,k] · scale[o])`, when every
weight is a real number: the detour `w + (q - w)` the reference takes through the weight is `q`. -/
theorem ref_sum (x0 : (⟨S4x2048x4096, .f32⟩ : BufTy).Contents (Elt Ideal))
    (x1 : (⟨S11008x4096, .f32⟩ : BufTy).Contents (Elt Ideal))
    (x2 : (⟨S11008x1, .f32⟩ : BufTy).Contents (Elt Ideal))
    (hfin : ∀ j, ∃ r : ℝ, x1 j = (r : EReal)) (i : S4x2048x11008.Idx) :
    val_main_v13 (F := Ideal) x0 x1 x2 i
      = ∑ k : Fin 4096, x0 (lidx_main_v13 i k) * Wsc x1 x2 (ridx_main_v13 i k) := by
  rw [val_main_v13_apply]
  refine Finset.sum_congr rfl fun k _ => ?_
  congr 1
  generalize ridx_main_v13 i k = j
  obtain ⟨r, hr⟩ := hfin j
  show FloatOps.mulf (F := Ideal) (φ := .f32) (val_main_v10 (F := Ideal) x1 j) (val_main_v11 (F := Ideal) x2 j)
      = FloatOps.mulf (F := Ideal) (φ := .f32) (val_main_v8 (F := Ideal) x1 j) (val_main_v11 (F := Ideal) x2 j)
  congr 1
  rw [val_main_v10_apply, val_main_v9_apply, Ideal.addf_def, Ideal.subf_def, hr]
  exact add_sub_cancel_real r _

end Cert.Bridge.Ref

end
-- ==== Proof.IdealHost.lean ====
/-
  The host lines around the region, at the ideal values, and the idealized kernel's run with its result named.
  Before the region: the left operand is the first argument with its two leading axes merged (the change of
  float format is the identity), the right operand the scaled ternary weight `q[o, k] · scale[o]`. After it: the
  result with its leading axis split back. So the result at (b, s, o) is the sum over k of
  x[b, s, k] · (q[o, k] · scale[o]).
-/
import proofs.«121762_j81046032875543_2_alg».proof.Proof.IdealArray
import proofs.«121762_j81046032875543_2_alg».proof.Proof.RefSum
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The left operand as the region finds it: the first argument, its leading axes merged. -/
theorem v1_eq (c : Dev nD) : (V m c main_v1 : S8192x4096.Idx → EReal)
    = shapeCast S8192x4096 (m ((c : Thread nD τ).loc main_arg0)) shapeCasts_S4x2048x4096_S8192x4096 := by
  show StableHlo.after hostOps0 (fun b => m (c, b)) (Proc.devRef .tc main_v1) = _
  after_results
  rfl

/-- The right operand as the region finds it: the scaled ternary weight. -/
theorem v13_eq (c : Dev nD) : (V m c main_v13 : S11008x4096.Idx → EReal)
    = Cert.Bridge.Ref.Wsc (m ((c : Thread nD τ).loc main_arg1)) (m ((c : Thread nD τ).loc main_arg2)) := by
  show StableHlo.after hostOps0 (fun b => m (c, b)) (Proc.devRef .tc main_v13) = _
  after_results
  rfl

/-- The activations, as an array of extended reals. -/
def argX (c : Dev nD) : S4x2048x4096.Idx → EReal := m ((c : Thread nD τ).loc main_arg0)

/-- The scaled ternary weight of the launch's weight and scale arrays, as an array of extended reals. -/
def argW (c : Dev nD) : S11008x4096.Idx → EReal :=
  Cert.Bridge.Ref.Wsc (m ((c : Thread nD τ).loc main_arg1)) (m ((c : Thread nD τ).loc main_arg2))

theorem lhsAt_eq (c : Dev nD) (b : Fin 4) (s : Fin 2048) (q : Fin 4096) :
    lhsAt m c (b.val * 2048 + s.val) q.val = argX m c (ix3 b s q) := by
  have hb := b.isLt
  have hs := s.isLt
  unfold lhsAt argX
  rw [dif_pos ⟨by omega, q.isLt⟩, v1_eq]
  refine shapeCast_apply _ _ _ (ix3 b s q) ?_
  rw [Shape.rowMajor_val_three, Shape.rowMajor_val_two]
  rfl

theorem rhsAt_eq (c : Dev nD) (o : Fin 11008) (q : Fin 4096) :
    rhsAt m c o.val q.val = argW m c (ix2 o q) := by
  unfold rhsAt argW
  rw [dif_pos ⟨o.isLt, q.isLt⟩, v13_eq]

/-- The program's result: the result array of the region with its leading axis split. -/
def kerRes (c : Dev nD) : Buf (Elt Ideal) ((c : Thread nD τ).loc main_v15) :=
  shapeCast S4x2048x11008 (resAt m c) shapeCasts_S8192x11008_S4x2048x11008

/-- The host line after the region leaves the result buffer at `kerRes`. -/
theorem tail_eq (c : Dev nD) : Pipeline.afterTail₀ cfgs (dats m) 0 (V0 m) [hostOps1] c main_v15 = kerRes m c := by
  unfold Pipeline.afterTail₀
  show StableHlo.after hostOps1 _ (Proc.devRef .tc main_v15) = _
  after_results
  have hw : Pipeline.withArrays spec0 c (V0 m c) (fun w => (dats m 0 c).arrAt w cfg0.N) (Proc.devRef .tc main_v14) = resAt m c :=
    (Pipeline.withArrays_arr spec0 launch0.win.arr_inj c _ _ 2).trans (final_res m c)
  rw [hw]
  rfl

/-- The result as an array of extended reals. -/
def kerResE (c : Dev nD) : S4x2048x11008.Idx → EReal := kerRes m c

/-- The result at (b, s, o). -/
theorem kerRes_apply (c : Dev nD) (b : Fin 4) (s : Fin 2048) (o : Fin 11008) :
    kerResE m c (ix3 b s o) = ∑ q : Fin 4096, argX m c (ix3 b s q) * argW m c (ix2 o q) := by
  have hb := b.isLt
  have hs := s.isLt
  unfold kerResE kerRes
  have hk : ((⟨2, ![8192, 11008]⟩ : Shape).rowMajor (ix2 (⟨b.val * 2048 + s.val, by omega⟩ : Fin 8192) o)).val
      = ((⟨3, ![4, 2048, 11008]⟩ : Shape).rowMajor (ix3 b s o)).val := by
    rw [Shape.rowMajor_val_two, Shape.rowMajor_val_three]; rfl
  rw [shapeCast_apply (resAt m c : S8192x11008.Idx → EReal) shapeCasts_S8192x11008_S4x2048x11008 (ix3 b s o)
    (ix2 (⟨b.val * 2048 + s.val, by omega⟩ : Fin 8192) o) hk]
  show (∑ q : Fin 4096, lhsAt m c (b.val * 2048 + s.val) q.val * rhsAt m c o.val q.val : EReal) = _
  refine Finset.sum_congr rfl fun q _ => ?_
  rw [lhsAt_eq, rhsAt_eq]

/-- The idealized kernel's run with its result named: the result buffer ends at `kerRes`, the arguments as launched. -/
theorem run_value : θ_run defs (onTc (τ := τ) (main (F := Ideal))) ⟨m, fun _ => 0, ρ⟩ (fun r => ∀ c : Dev nD,
      r.2.mem ((c.tc : Thread nD τ).loc main_v15) = kerRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.FiniteWeight.lean ====
import proofs.«121762_j81046032875543_2_alg».proof.Defs
import proofs.«121762_j81046032875543_2_alg».proof.Proof.Gen.Pre_finite_inputs
import Idealize.ShloMosaic.Lib.ReduceAll
import Idealize.ShloMosaic.Lib.ValueIdx
import Mathlib.Data.EReal.Operations

/-!
# Every weight is a real number

The precondition says that every entry `x` of the three input arrays satisfies `|x| < +∞`,
as one conjunction of three "for all entries" tests.  At the ideal reading an entry is an extended
real and `|x| = max x (-x)`; `|x| < +∞` rules out both `+∞` and `-∞`, so the entry is a real.
-/

noncomputable section

namespace Cert.Bridge.Fin

open Cert.Pre_finite_inputs Idealize.ShloMosaic

/-- The pattern `0x7F800000` (sign 0, exponent all ones, fraction 0) denotes `+∞`. -/
theorem ofBits_inf : Ideal.ofBits .f32 0x7F800000#32 = (⊤ : EReal) := by
  simp [Ideal.ofBits, Ideal.ieee]

/-- An extended real `x` with `max x (-x) < +∞` is a real number: for `x = +∞` the maximum is
`x`, for `x = -∞` it is `-x = +∞`. -/
theorem real_of_abs_lt_inf (x : EReal)
    (hx : Ideal.cmp .olt (max x (-x)) (Ideal.ofBits .f32 0x7F800000#32) = 1#1) :
    ∃ r : ℝ, x = (r : EReal) := by
  rw [ofBits_inf] at hx
  induction x using EReal.rec with
  | bot => exfalso; simp [Ideal.cmp] at hx
  | coe r => exact ⟨r, rfl⟩
  | top => exfalso; simp [Ideal.cmp] at hx

variable [Cert.Pre_finite_inputs.Facts]

/-- The shape with no axes has exactly one index. -/
instance : Subsingleton S_.Idx := ⟨fun a b => funext fun d => d.elim0⟩

/-- If the finiteness test of the three input arrays answers "true", every entry of the second
array (the weight) is a real number. -/
theorem weight_real (a0 : (⟨S4x2048x4096, .f32⟩ : BufTy).Contents (Elt Ideal))
    (a1 : (⟨S11008x4096, .f32⟩ : BufTy).Contents (Elt Ideal))
    (a2 : (⟨S11008x1, .f32⟩ : BufTy).Contents (Elt Ideal))
    (h : Cert.Pre_finite_inputs.fn (F := Ideal) a0 a1 a2 = (fun _ => 1#1)) :
    ∀ j, ∃ r : ℝ, a1 j = (r : EReal) := by
  intro j
  have h0 := congrFun h ValueIdx.ix0
  dsimp only [Cert.Pre_finite_inputs.fn] at h0
  obtain ⟨h01, -⟩ := IntOp.andi_eq_one.1 h0
  obtain ⟨-, h1⟩ := IntOp.andi_eq_one.1 h01
  have hj := Host.reduce_andi_all _ _ _ _ ValueIdx.ix0 h1 j
  exact real_of_abs_lt_inf (a1 j) hj

end Cert.Bridge.Fin

end
-- ==== Proof.lean ====
/-
  A ternary-weight linear layer: y[b, s, o] = Σ_k x[b, s, k] · (q[o, k] · scale[o]), where
  q = sign(w) · [|w| > 0.7 · mean|w|] is the ternarized weight.

  The kernel ternarizes and scales the weight on the host, then multiplies blockwise: the grid is
  (4, 6, 8) over (row block, column block, contraction block), the [2048, 2048] output block accumulated over the
  eight contraction blocks of 512 and written back after the eighth; 11008 output columns in blocks of 2048 leave
  a last block of 768, so the right operand's last row block and the result's last column block overhang their
  arrays. The reference forms w + (q − w), scales it and contracts it with x in one product.

  At the ideal values the two agree: the changes of float format are the identity; w + (q − w) = q because every
  weight is a real number (the precondition: every input is finite) — this is the one place finiteness is used;
  the eight partial sums over 512 columns, added in order onto zero, are the sum over all 4096 columns
  (associativity and 0 + a = a only); the rows of the right operand past the array's end reach only the result's
  columns past the array's end, which the write-back does not move.

  The three frames: the word-level kernel's reads nothing of any staging buffer (all three windows forgotten);
  the idealized kernel's is its value run read at the arguments; the reference's is its run with the result
  dropped. The ideal pass rewrote nothing, so `preserves` is `True`.
-/
import proofs.«121762_j81046032875543_2_alg».proof.Defs
import proofs.«121762_j81046032875543_2_alg».proof.Proof.Gen.Kernel
import proofs.«121762_j81046032875543_2_alg».proof.Proof.Gen.KernelIdeal
import proofs.«121762_j81046032875543_2_alg».proof.Proof.Gen.ReferenceIdeal
import proofs.«121762_j81046032875543_2_alg».proof.Proof.Gen.ReferenceIdeal.Run
import proofs.«121762_j81046032875543_2_alg».proof.Proof.Gen.ReferenceIdeal.Read
import proofs.«121762_j81046032875543_2_alg».proof.Proof.Gen.Pre_finite_inputs
import proofs.«121762_j81046032875543_2_alg».proof.Proof.BitsFrame
import proofs.«121762_j81046032875543_2_alg».proof.Proof.IdealHost
import proofs.«121762_j81046032875543_2_alg».proof.Proof.FiniteWeight
import proofs.«121762_j81046032875543_2_alg».proof.Proof.RefSum
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's result, as a function of arrays whose weights are real numbers, is the kernel's result: entry
    by entry both are Σ_k x[b, s, k] · (q[o, k] · scale[o]). -/
theorem ref_eq_ker (m : (ℓ : Loc Cert.KernelIdeal.nD Cert.KernelIdeal.τ Cert.KernelIdeal.sig) → Buf (Elt Ideal) ℓ)
    (c : Dev Cert.KernelIdeal.nD)
    (hfin : ∀ j, ∃ r : ℝ, (m ((c.tc : Thread Cert.KernelIdeal.nD Cert.KernelIdeal.τ).loc Cert.KernelIdeal.main_arg1) : Cert.KernelIdeal.S11008x4096.Idx → EReal) j = (r : EReal)) :
    Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Hand.kerRes m c := by
  funext i
  obtain ⟨b, s, o, rfl⟩ : ∃ (b : Fin 4) (s : Fin 2048) (o : Fin 11008), i = ix3 b s o := ⟨i 0, i 1, i 2, eq_ix3 i⟩
  show (Cert.ReferenceIdeal.Read.val_main_v13 (F := Ideal) _ _ _ (ix3 b s o) : EReal) = Cert.KernelIdeal.Hand.kerResE m c (ix3 b s o)
  rw [Cert.KernelIdeal.Hand.kerRes_apply, Cert.Bridge.Ref.ref_sum _ _ _ hfin]
  refine Finset.sum_congr rfl fun k _ => ?_
  have e1 : Cert.ReferenceIdeal.Read.lidx_main_v13 (ix3 b s o) k = ix3 b s k :=
    funext fun a => Fin.ext (by match a with | ⟨0, _⟩ => rfl | ⟨1, _⟩ => rfl | ⟨2, _⟩ => rfl)
  have e2 : Cert.ReferenceIdeal.Read.ridx_main_v13 (ix3 b s o) k = ix2 o k :=
    funext fun a => Fin.ext (by match a with | ⟨0, _⟩ => rfl | ⟨1, _⟩ => rfl)
  rw [e1, e2]
  rfl

theorem frame_k : Cert.frame_Kernel := fun m ρ _ => Cert.Kernel.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result array. -/
theorem algebraic : Cert.algebraic_KernelIdeal_ReferenceIdeal := by
  intro m ρ m' ρ' hpre hagree
  refine ⟨fun c => Cert.KernelIdeal.Hand.kerRes m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v13_eq _ _ _).trans
    (ref_eq_ker m c (Cert.Bridge.Fin.weight_real _ _ _ (hpre c)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
